-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S1600000 : Shape := ⟨1, ![1600000]⟩
abbrev S100000x32 : Shape := ⟨2, ![100000, 32]⟩
abbrev S32x4 : Shape := ⟨2, ![32, 4]⟩
abbrev S32x32 : Shape := ⟨2, ![32, 32]⟩
abbrev S32 : Shape := ⟨1, ![32]⟩
abbrev S_ : Shape := ⟨0, ![]⟩

class Facts : Prop where
  bcast_S_S100000x4 : S_.BroadcastsInDim S100000x4 (![] : Fin 0 → Fin S100000x4.rank)
  reducesTo_S100000x4_S_d0_1 : S100000x4.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S100000x32 : S_.BroadcastsInDim S100000x32 (![] : Fin 0 → Fin S100000x32.rank)
  reducesTo_S100000x32_S_d0_1 : S100000x32.ReducesTo [0, 1] S_
  bcast_S_S32x4 : S_.BroadcastsInDim S32x4 (![] : Fin 0 → Fin S32x4.rank)
  reducesTo_S32x4_S_d0_1 : S32x4.ReducesTo [0, 1] S_
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg9 : FVec F S32 .f32) (main_v33 : IVec S_ 1) : IVec S_ 1 :=
  let main_v34 : FVec F S32 .f32 := Host.absf main_arg9
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  main_v38

def fn_part1 {F : FTy → Type} [FloatOps F] (main_arg6 : FVec F S32x32 .f32) (main_arg7 : FVec F S32x32 .f32) (main_arg8 : FVec F S32 .f32) (main_arg9 : FVec F S32 .f32) (main_v13 : IVec S_ 1) (main_v16 : IVec S32x4 1) : IVec S_ 1 :=
  let main_c_5 : IVec S_ 1 := constantI S_ 1 1#1
  let main_v17 : IVec S_ 1 := (fun x v => Host.reduce IntOp.andi x v reducesTo_S32x4_S_d0_1 h_S_) main_v16 main_c_5
  let main_v18 : IVec S_ 1 := andi main_v13 main_v17
  let main_v19 : FVec F S32x32 .f32 := Host.absf main_arg6
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32x32 .f32 := Host.absf main_arg7
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_v33

def fn {F : FTy → Type} [FloatOps F] (main_arg0 : FVec F S100000x4 .f32) (main_arg1 : FVec F S1600000 .f32) (main_arg2 : FVec F S100000x32 .f32) (main_arg3 : IVec S1600000 32) (main_arg4 : IVec S1600000 32) (main_arg5 : FVec F S32x4 .f32) (main_arg6 : FVec F S32x32 .f32) (main_arg7 : FVec F S32x32 .f32) (main_arg8 : FVec F S32 .f32) (main_arg9 : FVec F S32 .f32) : IVec S_ 1 :=
  let main_v0 : FVec F S100000x4 .f32 := Host.absf main_arg0
  let main_cst : FVec F S_ .f32 := constant S_ .f32 0x7F800000#32
  let main_v1 : FVec F S100000x4 .f32 := broadcastInDim S100000x4 ![] bcast_S_S100000x4 main_cst
  let main_v2 : IVec S100000x4 1 := cmpf .olt main_v0 main_v1
  let main_c : IVec S_ 1 := constantI S_ 1 1#1
  let main_v3 : IVec S_ 1 := (fun x v => Host.reduce IntOp.andi x v reducesTo_S100000x4_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S100000x32 .f32 := Host.absf main_arg2
  let main_cst_2 : FVec F S_ .f32 := constant S_ .f32 0x7F800000#32
  let main_v10 : FVec F S100000x32 .f32 := broadcastInDim S100000x32 ![] bcast_S_S100000x32 main_cst_2
  let main_v11 : IVec S100000x32 1 := cmpf .olt main_v9 main_v10
  let main_c_3 : IVec S_ 1 := constantI S_ 1 1#1
  let main_v12 : IVec S_ 1 := (fun x v => Host.reduce IntOp.andi x v reducesTo_S100000x32_S_d0_1 h_S_) main_v11 main_c_3
  let main_v13 : IVec S_ 1 := andi main_v8 main_v12
  let main_v14 : FVec F S32x4 .f32 := Host.absf main_arg5
  let main_cst_4 : FVec F S_ .f32 := constant S_ .f32 0x7F800000#32
  let main_v15 : FVec F S32x4 .f32 := broadcastInDim S32x4 ![] bcast_S_S32x4 main_cst_4
  let main_v16 : IVec S32x4 1 := cmpf .olt main_v14 main_v15
  fn_part1 (F := F) main_arg6 main_arg7 main_arg8 main_arg9 main_v13 main_v16
-- ==== Kernel.lean ====
abbrev S100000x4 : Shape := ⟨2, ![100000, 4]⟩
abbrev S1600000 : Shape := ⟨1, ![1600000]⟩
abbrev S100000x32 : Shape := ⟨2, ![100000, 32]⟩
abbrev S32x4 : Shape := ⟨2, ![32, 4]⟩
abbrev S32x32 : Shape := ⟨2, ![32, 32]⟩
abbrev S32 : Shape := ⟨1, ![32]⟩
abbrev S1600000x1 : Shape := ⟨2, ![1600000, 1]⟩
abbrev S1x32 : Shape := ⟨2, ![1, 32]⟩
abbrev S1600000x32 : Shape := ⟨2, ![1600000, 32]⟩
abbrev S8000x1 : Shape := ⟨2, ![8000, 1]⟩
abbrev S8000x32 : Shape := ⟨2, ![8000, 32]⟩
abbrev S_ : Shape := ⟨0, ![]⟩
abbrev S2000x4 : Shape := ⟨2, ![2000, 4]⟩
abbrev S2000x32 : Shape := ⟨2, ![2000, 32]⟩
abbrev S4x32 : Shape := ⟨2, ![4, 32]⟩

abbrev nBuf : Space → Nat
  | .hbm => 32
  | .vmem => 17
  | .smem => 0
  | _ => 0

abbrev bufTy : (tb : Table) → Fin (tcTables nBuf tb) → BufTy
  | .hbm, ⟨0, _⟩ => ⟨S100000x4, .f32⟩
  | .hbm, ⟨1, _⟩ => ⟨S1600000, .f32⟩
  | .hbm, ⟨2, _⟩ => ⟨S100000x32, .f32⟩
  | .hbm, ⟨3, _⟩ => ⟨S1600000, .i32⟩
  | .hbm, ⟨4, _⟩ => ⟨S1600000, .i32⟩
  | .hbm, ⟨5, _⟩ => ⟨S32x4, .f32⟩
  | .hbm, ⟨6, _⟩ => ⟨S32x32, .f32⟩
  | .hbm, ⟨7, _⟩ => ⟨S32x32, .f32⟩
  | .hbm, ⟨8, _⟩ => ⟨S32, .f32⟩
  | .hbm, ⟨9, _⟩ => ⟨S32, .f32⟩
  | .hbm, ⟨10, _⟩ => ⟨S1600000x1, .f32⟩
  | .hbm, ⟨11, _⟩ => ⟨S1x32, .f32⟩
  | .hbm, ⟨12, _⟩ => ⟨S1600000x32, .f32⟩
  | .hbm, ⟨13, _⟩ => ⟨S_, .f32⟩
  | .hbm, ⟨14, _⟩ => ⟨S100000x32, .f32⟩
  | .hbm, ⟨15, _⟩ => ⟨S1600000x1, .i32⟩
  | .hbm, ⟨16, _⟩ => ⟨S100000x32, .f32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x32, .f32⟩
  | .hbm, ⟨26, _⟩ => ⟨S_, .f32⟩
  | .hbm, ⟨27, _⟩ => ⟨S100000x32, .f32⟩
  | .hbm, ⟨28, _⟩ => ⟨S1600000x1, .i32⟩
  | .hbm, ⟨29, _⟩ => ⟨S100000x32, .f32⟩
  | .hbm, ⟨30, _⟩ => ⟨S1x32, .f32⟩
  | .hbm, ⟨31, _⟩ => ⟨S100000x32, .f32⟩
  | .local _ .vmem, ⟨0, _⟩ => ⟨S8000x1, .f32⟩
  | .local _ .vmem, ⟨1, _⟩ => ⟨S8000x1, .f32⟩
  | .local _ .vmem, ⟨2, _⟩ => ⟨S1x32, .f32⟩
  | .local _ .vmem, ⟨3, _⟩ => ⟨S8000x32, .f32⟩
  | .local _ .vmem, ⟨4, _⟩ => ⟨S8000x32, .f32⟩
  | .local _ .vmem, ⟨5, _⟩ => ⟨S2000x4, .f32⟩
  | .local _ .vmem, ⟨6, _⟩ => ⟨S2000x4, .f32⟩
  | .local _ .vmem, ⟨7, _⟩ => ⟨S2000x32, .f32⟩
  | .local _ .vmem, ⟨8, _⟩ => ⟨S2000x32, .f32⟩
  | .local _ .vmem, ⟨9, _⟩ => ⟨S2000x32, .f32⟩
  | .local _ .vmem, ⟨10, _⟩ => ⟨S2000x32, .f32⟩
  | .local _ .vmem, ⟨11, _⟩ => ⟨S32x4, .f32⟩
  | .local _ .vmem, ⟨12, _⟩ => ⟨S32x32, .f32⟩
  | .local _ .vmem, ⟨13, _⟩ => ⟨S32x32, .f32⟩
  | .local _ .vmem, ⟨14, _⟩ => ⟨S1x32, .f32⟩
  | .local _ .vmem, ⟨15, _⟩ => ⟨S2000x32, .f32⟩
  | .local _ .vmem, ⟨16, _⟩ => ⟨S2000x32, .f32⟩
  | _, _ => ⟨S100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg7_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem7_1 : DmaSem sig := 16

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S32x4 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x32 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  shapeCasts_S1600000_S1600000x1 : S1600000.ShapeCasts S1600000x1
  shapeCasts_S32_S1x32 : S32.ShapeCasts S1x32
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S8000x1_S8000x32 : S8000x1.Broadcasts S8000x32
  broadcasts_S1x32_S8000x32 : S1x32.Broadcasts S8000x32
  inb_S8000x32_S8000x32_0_0 : ∀ a, (![0, 0] : Fin 2 → Nat) a + S8000x32.size a ≤ S8000x32.size a
  h_S8000x32 : 0 < S8000x32.numel
  bcast_S_S100000x32 : S_.BroadcastsInDim S100000x32 (![] : Fin 0 → Fin S100000x32.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  inb_S2000x4_S2000x4_0_0 : ∀ a, (![0, 0] : Fin 2 → Nat) a + S2000x4.size a ≤ S2000x4.size a
  h_S2000x4 : 0 < S2000x4.numel
  bitsLt_bf16_f32 : FTy.bits .bf16 < FTy.bits .f32
  inb_S32x4_S32x4_0_0 : ∀ a, (![0, 0] : Fin 2 → Nat) a + S32x4.size a ≤ S32x4.size a
  h_S32x4 : 0 < S32x4.numel
  transposes_S32x4_p1_0_S4x32 : S32x4.Transposes [1, 0] S4x32
  inb_S2000x32_S2000x32_0_0 : ∀ a, (![0, 0] : Fin 2 → Nat) a + S2000x32.size a ≤ S2000x32.size a
  h_S2000x32 : 0 < S2000x32.numel
  shapeCasts_S2000x32_S2000x32 : S2000x32.ShapeCasts S2000x32
  inb_S32x32_S32x32_0_0 : ∀ a, (![0, 0] : Fin 2 → Nat) a + S32x32.size a ≤ S32x32.size a
  h_S32x32 : 0 < S32x32.numel
  transposes_S32x32_p1_0_S32x32 : S32x32.Transposes [1, 0] S32x32
  broadcasts_S1x32_S2000x32 : S1x32.Broadcasts S2000x32
  scatter_S100000x32_S1600000x1_S1600000x32_1_0_0_1_wf : ScatterDims.WF S100000x32 S1600000x1 S1600000x32 [1] [0] [0] 1
  gather_S100000x32_S1600000x1_S1600000x32_1_0_n_n_0_1_132_wf : GatherDims.WF S100000x32 S1600000x1 S1600000x32 [1] [0] [] [0] [] 1 ![1, 32]
  dot_S2000x4_S4x32_S2000x32_1_0_0_1_n_n_wf : DotDims.WF S2000x4 S4x32 S2000x32 [1] [0] [0] [1] [] []
  dot_S2000x32_S32x32_S2000x32_1_0_0_1_n_n_wf : DotDims.WF S2000x32 S32x32 S2000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x1.size a ≤ S1600000x1.size a
  hwx0_0 : ∀ i : grid0.Coords, EltTy.bits .f32 = 32 ∨ (Rect.block (s := S1600000x1) S8000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x32.size a ≤ S1x32.size a
  hwx0_1 : ∀ i : grid0.Coords, EltTy.bits .f32 = 32 ∨ (Rect.block (s := S1x32) S1x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x32.size a ≤ S1600000x32.size a
  hwx0_2 : ∀ i : grid0.Coords, EltTy.bits .f32 = 32 ∨ (Rect.block (s := S1600000x32) S8000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x4.size a ≤ S100000x4.size a
  hwx1_0 : ∀ i : grid1.Coords, EltTy.bits .f32 = 32 ∨ (Rect.block (s := S100000x4) S2000x4.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x32.size a ≤ S100000x32.size a
  hwx1_1 : ∀ i : grid1.Coords, EltTy.bits .f32 = 32 ∨ (Rect.block (s := S100000x32) S2000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x32.size a ≤ S100000x32.size a
  hwx1_2 : ∀ i : grid1.Coords, EltTy.bits .f32 = 32 ∨ (Rect.block (s := S100000x32) S2000x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x4.size a ≤ S32x4.size a
  hwx1_3 : ∀ i : grid1.Coords, EltTy.bits .f32 = 32 ∨ (Rect.block (s := S32x4) S32x4.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x32.size a ≤ S32x32.size a
  hwx1_4 : ∀ i : grid1.Coords, EltTy.bits .f32 = 32 ∨ (Rect.block (s := S32x32) S32x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x32.size a ≤ S32x32.size a
  hwx1_5 : ∀ i : grid1.Coords, EltTy.bits .f32 = 32 ∨ (Rect.block (s := S32x32) S32x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x32.size a ≤ S1x32.size a
  hwx1_6 : ∀ i : grid1.Coords, EltTy.bits .f32 = 32 ∨ (Rect.block (s := S1x32) S1x32.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x32.size a ≤ S100000x32.size a
  hwx1_7 : ∀ i : grid1.Coords, EltTy.bits .f32 = 32 ∨ (Rect.block (s := S100000x32) S2000x32.size (cc1_transform_7 i) (hinb1_7 i)).WholeWords (EltTy.packing .f32)

variable [Facts₀]

def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def dot_S2000x4_S4x32_S2000x32_1_0_0_1_n_n : DotDims S2000x4 S4x32 S2000x32 where
  lhsContracting := [1]
  rhsContracting := [0]
  lhsNonContracting := [0]
  rhsNonContracting := [1]
  lhsBatch := []
  rhsBatch := []
  wf := dot_S2000x4_S4x32_S2000x32_1_0_0_1_n_n_wf
def dot_S2000x32_S32x32_S2000x32_1_0_0_1_n_n : DotDims S2000x32 S32x32 S2000x32 where
  lhsContracting := [1]
  rhsContracting := [0]
  lhsNonContracting := [0]
  rhsNonContracting := [1]
  lhsBatch := []
  rhsBatch := []
  wf := dot_S2000x32_S32x32_S2000x32_1_0_0_1_n_n_wf

abbrev win0_0 : Pipeline.Window sig grid0 :=
  Pipeline.Window.ofSpec (Memref.whole main_v0) S8000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S2000x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S2000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S2000x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S32x4.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S32x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S32x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v16) S1x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v17) S2000x32.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x4 : Shape := ⟨2, ![100000, 4]⟩
abbrev S1600000 : Shape := ⟨1, ![1600000]⟩
abbrev S100000x32 : Shape := ⟨2, ![100000, 32]⟩
abbrev S32x4 : Shape := ⟨2, ![32, 4]⟩
abbrev S32x32 : Shape := ⟨2, ![32, 32]⟩
abbrev S32 : Shape := ⟨1, ![32]⟩
abbrev S4x32 : Shape := ⟨2, ![4, 32]⟩
abbrev S1600000x1 : Shape := ⟨2, ![1600000, 1]⟩
abbrev S1x32 : Shape := ⟨2, ![1, 32]⟩
abbrev S1600000x32 : Shape := ⟨2, ![1600000, 32]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S100000x4, .f32⟩
  | .hbm, ⟨1, _⟩ => ⟨S1600000, .f32⟩
  | .hbm, ⟨2, _⟩ => ⟨S100000x32, .f32⟩
  | .hbm, ⟨3, _⟩ => ⟨S1600000, .i32⟩
  | .hbm, ⟨4, _⟩ => ⟨S1600000, .i32⟩
  | .hbm, ⟨5, _⟩ => ⟨S32x4, .f32⟩
  | .hbm, ⟨6, _⟩ => ⟨S32x32, .f32⟩
  | .hbm, ⟨7, _⟩ => ⟨S32x32, .f32⟩
  | .hbm, ⟨8, _⟩ => ⟨S32, .f32⟩
  | .hbm, ⟨9, _⟩ => ⟨S32, .f32⟩
  | .hbm, ⟨10, _⟩ => ⟨S4x32, .f32⟩
  | .hbm, ⟨11, _⟩ => ⟨S100000x32, .f32⟩
  | .hbm, ⟨12, _⟩ => ⟨S1600000x1, .f32⟩
  | .hbm, ⟨13, _⟩ => ⟨S1x32, .f32⟩
  | .hbm, ⟨14, _⟩ => ⟨S1600000x32, .f32⟩
  | .hbm, ⟨15, _⟩ => ⟨S1600000x32, .f32⟩
  | .hbm, ⟨16, _⟩ => ⟨S1600000x32, .f32⟩
  | .hbm, ⟨17, _⟩ => ⟨S_, .f32⟩
  | .hbm, ⟨18, _⟩ => ⟨S1600000x32, .f32⟩
  | .hbm, ⟨19, _⟩ => ⟨S1600000x32, .f32⟩
  | .hbm, ⟨20, _⟩ => ⟨S_, .f32⟩
  | .hbm, ⟨21, _⟩ => ⟨S100000x32, .f32⟩
  | .hbm, ⟨22, _⟩ => ⟨S1600000x1, .i32⟩
  | .hbm, ⟨23, _⟩ => ⟨S100000x32, .f32⟩
  | .hbm, ⟨24, _⟩ => ⟨S32x32, .f32⟩
  | .hbm, ⟨25, _⟩ => ⟨S100000x32, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x32, .f32⟩
  | .hbm, ⟨35, _⟩ => ⟨S_, .f32⟩
  | .hbm, ⟨36, _⟩ => ⟨S100000x32, .f32⟩
  | .hbm, ⟨37, _⟩ => ⟨S1600000x1, .i32⟩
  | .hbm, ⟨38, _⟩ => ⟨S100000x32, .f32⟩
  | .hbm, ⟨39, _⟩ => ⟨S32x32, .f32⟩
  | .hbm, ⟨40, _⟩ => ⟨S100000x32, .f32⟩
  | .hbm, ⟨41, _⟩ => ⟨S1x32, .f32⟩
  | .hbm, ⟨42, _⟩ => ⟨S100000x32, .f32⟩
  | .hbm, ⟨43, _⟩ => ⟨S100000x32, .f32⟩
  | .hbm, ⟨44, _⟩ => ⟨S100000x32, .f32⟩
  | .hbm, ⟨45, _⟩ => ⟨S100000x32, .f32⟩
  | .hbm, ⟨46, _⟩ => ⟨S_, .f32⟩
  | .hbm, ⟨47, _⟩ => ⟨S100000x32, .f32⟩
  | .hbm, ⟨48, _⟩ => ⟨S100000x32, .f32⟩
  | _, _ => ⟨S100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_call0_cst : Ref sig .tc := ⟨.hbm, 17, rfl⟩
abbrev main_call0_v0 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_0 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_1 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call1_cst : Ref sig .tc := ⟨.hbm, 46, rfl⟩
abbrev main_call1_v0 : Ref sig .tc := ⟨.hbm, 47, rfl⟩
abbrev main_v30 : Ref sig .tc := ⟨.hbm, 48, rfl⟩

abbrev nD : Nat := 1
abbrev τ : Topo := Topo.v7x

variable {F : FTy → Type} [FloatOps F]

class Facts₀ : Prop where
  transposes_S32x4_S4x32_1_0 : S32x4.Transposes [1, 0] S4x32
  bcast_S1600000_S1600000x1_0 : S1600000.BroadcastsInDim S1600000x1 (![0] : Fin 1 → Fin S1600000x1.rank)
  bcast_S32_S1x32_1 : S32.BroadcastsInDim S1x32 (![1] : Fin 1 → Fin S1x32.rank)
  bcast_S1600000x1_S1600000x32_0_1 : S1600000x1.BroadcastsInDim S1600000x32 (![0, 1] : Fin 2 → Fin S1600000x32.rank)
  bcast_S1x32_S1600000x32_0_1 : S1x32.BroadcastsInDim S1600000x32 (![0, 1] : Fin 2 → Fin S1600000x32.rank)
  bcast_S_S1600000x32 : S_.BroadcastsInDim S1600000x32 (![] : Fin 0 → Fin S1600000x32.rank)
  bcast_S_S100000x32 : S_.BroadcastsInDim S100000x32 (![] : Fin 0 → Fin S100000x32.rank)
  transposes_S32x32_S32x32_1_0 : S32x32.Transposes [1, 0] S32x32
  bcast_S_S1600000 : S_.BroadcastsInDim S1600000 (![] : Fin 0 → Fin S1600000.rank)
  bcast_S1x32_S100000x32_0_1 : S1x32.BroadcastsInDim S100000x32 (![0, 1] : Fin 2 → Fin S100000x32.rank)
  dot_S100000x4_S4x32_S100000x32_1_0_0_1_n_n_wf : DotDims.WF S100000x4 S4x32 S100000x32 [1] [0] [0] [1] [] []
  scatter_S100000x32_S1600000x1_S1600000x32_1_0_0_1_wf : ScatterDims.WF S100000x32 S1600000x1 S1600000x32 [1] [0] [0] 1
  dot_S100000x32_S32x32_S100000x32_1_0_0_1_n_n_wf : DotDims.WF S100000x32 S32x32 S100000x32 [1] [0] [0] [1] [] []
  gather_S100000x32_S1600000x1_S1600000x32_1_0_n_n_0_1_132_wf : GatherDims.WF S100000x32 S1600000x1 S1600000x32 [1] [0] [] [0] [] 1 ![1, 32]

variable [Facts₀]

def dot_S100000x4_S4x32_S100000x32_1_0_0_1_n_n : DotDims S100000x4 S4x32 S100000x32 where
  lhsContracting := [1]
  rhsContracting := [0]
  lhsNonContracting := [0]
  rhsNonContracting := [1]
  lhsBatch := []
  rhsBatch := []
  wf := dot_S100000x4_S4x32_S100000x32_1_0_0_1_n_n_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf

class Facts : Prop extends Facts₀ where

variable [Facts]
-- ==== Proof.KernelRun.lean ====
/-
  The kernel program's run, with its result buffer read.

  The program is four stretches: two reshapes, the edge region, eighteen host operations (the two aggregations and the
  gather between them), the node region. The buffer contents at the boundaries are a fold from the launch memory, and
  every weakly fair execution terminates, nothing faulting, with every unscoped buffer at the last boundary's contents.
  So the result buffer ends at that fold read at the result, and each argument as launched.
-/
import proofs.«143525_j27771258536763_1_alg».proof.Proof.Gen.KernelIdeal.Frame

set_option maxRecDepth 16384

noncomputable section

namespace Cert.Layer.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents and
    the arguments as launched: the segments' run, the last thread state read against the final state. -/
theorem value_run : θ_run defs (onTc (τ := τ) (main (F := F))) ⟨m, fun _ => 0, ρ⟩ (fun r => ∀ c : Dev nD,
      r.2.mem ((c.tc : Thread nD τ).loc main_v17) = W4 m ρ c (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v17 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.Layer.Run

end
-- ==== Proof.HostTerms.lean ====
/-
  The message-passing layer as the host computes it, in named pieces over whole arrays.

  With x the node inputs [N, 4], w the edge weights [E], feat the node features [N, 32], src and dst the edges' end
  nodes, and Wx, Ww, Wf, bf, weights the layer's parameters:
    * `edgeArr`   — the edge array g[e, d] = max(w[e] · weights[d], 0), from w as a column and weights as a row;
    * `aggregate` — the sum, for every node n, of the rows e of an [E, 32] array with dst[e] = n (a scatter-add
      into zeros);
    * `gatherSrc` — row e is feat[src[e]], a negative src[e] counted from the end;
    * `combine`   — max((x · Wxᵀ + hw · Wwᵀ) + (hf · Wfᵀ + bf), 0), the bias a row added to every row;
    * `layerOut`  — the whole layer: combine x (aggregate dst g) (aggregate dst (gatherSrc feat src)).
  Every piece is spelt with the host's own operations, so that the whole is, word for word, the term the host
  program's run ends at.
-/
import proofs.«143525_j27771258536763_1_alg».proof.ReferenceIdeal
import proofs.«143525_j27771258536763_1_alg».proof.Proof.Gen.ReferenceIdeal
import Idealize.ShloMosaic.PureOps.Ideal

noncomputable section

namespace Cert.Layer

open Idealize.ShloMosaic Cert.ReferenceIdeal Cert.ReferenceIdeal.Facts₀

/-- g[e, d] = max(w[e] · weights[d], 0), from the column of the w[e] and the row of the weights[d]. -/
def edgeArr (w1 : FVec Ideal S1600000x1 .f32) (wt : FVec Ideal S1x32 .f32) :
    FVec Ideal S1600000x32 .f32 :=
  maximumf (F := Ideal) (mulf (broadcastInDim S1600000x32 ![0, 1] bcast_S1600000x1_S1600000x32_0_1 w1) (broadcastInDim S1600000x32 ![0, 1] bcast_S1x32_S1600000x32_0_1 wt)) (broadcastInDim S1600000x32 ![] bcast_S_S1600000x32 (constant S_ .f32 0x00000000#32))

/-- Row n of the result is the sum of the rows e of `u` with dst[e] = n. -/
def aggregate (dst : IVec S1600000 32) (u : FVec Ideal S1600000x32 .f32) :
    FVec Ideal S100000x32 .f32 :=
  Host.scatterAdd (F := Ideal) scatter_S100000x32_S1600000x1_S1600000x32_1_0_0_1 (broadcastInDim S100000x32 ![] bcast_S_S100000x32 (constant S_ .f32 0x00000000#32)) (broadcastInDim S1600000x1 ![0] bcast_S1600000_S1600000x1_0 dst) u

/-- Row e of the result is feat[src[e]], a negative index counted from the end. -/
def gatherSrc (feat : FVec Ideal S100000x32 .f32) (src : IVec S1600000 32) :
    FVec Ideal S1600000x32 .f32 :=
  Host.gather gather_S100000x32_S1600000x1_S1600000x32_1_0_n_n_0_1_132 feat (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src))

/-- max((x · Wxᵀ + hw · Wwᵀ) + (hf · Wfᵀ + b), 0), the bias row `b` added to every row. -/
def combine (x : FVec Ideal S100000x4 .f32) (hw hf : FVec Ideal S100000x32 .f32)
    (Wx : FVec Ideal S32x4 .f32) (Ww Wf : FVec Ideal S32x32 .f32)
    (b : FVec Ideal S1x32 .f32) : FVec Ideal S100000x32 .f32 :=
  maximumf (F := Ideal) (addf (addf (Host.dotGeneral dot_S100000x4_S4x32_S100000x32_1_0_0_1_n_n none x (transpose S4x32 [1, 0] Wx transposes_S32x4_S4x32_1_0)) (Host.dotGeneral dot_S100000x32_S32x32_S100000x32_1_0_0_1_n_n none hw (transpose S32x32 [1, 0] Ww transposes_S32x32_S32x32_1_0))) (addf (Host.dotGeneral dot_S100000x32_S32x32_S100000x32_1_0_0_1_n_n none hf (transpose S32x32 [1, 0] Wf transposes_S32x32_S32x32_1_0)) (broadcastInDim S100000x32 ![0, 1] bcast_S1x32_S100000x32_0_1 b))) (broadcastInDim S100000x32 ![] bcast_S_S100000x32 (constant S_ .f32 0x00000000#32))

/-- The whole layer, of the ten argument arrays in the programs' order. -/
def layerOut (x : FVec Ideal S100000x4 .f32) (w : FVec Ideal S1600000 .f32)
    (feat : FVec Ideal S100000x32 .f32) (src dst : IVec S1600000 32)
    (Wx : FVec Ideal S32x4 .f32) (Ww Wf : FVec Ideal S32x32 .f32)
    (bf weights : FVec Ideal S32 .f32) : FVec Ideal S100000x32 .f32 :=
  combine x
    (aggregate dst (edgeArr (broadcastInDim S1600000x1 ![0] bcast_S1600000_S1600000x1_0 w) (broadcastInDim S1x32 ![1] bcast_S32_S1x32_1 weights)))
    (aggregate dst (gatherSrc feat src)) Wx Ww Wf (broadcastInDim S1x32 ![1] bcast_S32_S1x32_1 bf)

end Cert.Layer

end
-- ==== Proof.LibPlainDot.lean ====
/-
  General facts, at the extended reals, about a two-dimensional matrix product whose dimension numbers contract
  the left operand's second axis with the right operand's first (no batch axis).

  * A matrix unit's product of operands first cast to a narrower float format, accumulated into the zero splat,
    IS the host's dot_general of the uncast operands under the same dimension numbers: at each output index both
    are the sum over the contraction index of the products of the operands' entries, the casts being the identity
    and the zero accumulator adding nothing.
  * That sum, indexed by the dimension numbers' own contraction index, is the textbook sum over k < K of
    l(r, k) · r(k, c): the contraction index of a one-axis contraction is its one coordinate, and the operand
    indices at (r, c) and k are (r, k) and (k, c) — the four coordinate facts are hypotheses, discharged per record
    from the dimension numbers.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

/-- Into the zero splat, after narrowing casts of both operands, the matrix unit's product is the host's
    dot_general of the operands themselves (same dimension numbers, any precision word): index by index both are
    the contraction's sum of products. -/
theorem matmul_truncf_zero_eq_dotGeneral {sl sr so : Shape} {φ₁ φ₂ ψ₁ ψ₂ : FTy} (d : DotDims sl sr so)
    (prec : Option ContractPrecision) (l : FVec Ideal sl φ₁) (r : FVec Ideal sr φ₂)
    (h₁ : ψ₁.bits < φ₁.bits) (h₂ : ψ₂.bits < φ₂.bits) :
    matmul d prec (truncf ψ₁ l h₁) (truncf ψ₂ r h₂) (constant so .f32 0x00000000#32) = Host.dotGeneral d prec l r :=
  funext fun j =>
    ((Ideal.matmul_constant_zero_apply d prec (truncf ψ₁ l h₁) (truncf ψ₂ r h₂) j).trans
      (Finset.sum_congr rfl fun _ _ => rfl)).trans (Ideal.dotGeneral_apply d prec .single l r j).symm

/-- The contraction's sum at output index (r, c), re-indexed by the contracted coordinate k < K:
    the sum of l(r, k) · r(k, c). -/
theorem contraction_sum {M K N : Nat} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (l : (⟨2, ![M, K]⟩ : Shape).Idx → EReal) (r : (⟨2, ![K, N]⟩ : Shape).Idx → EReal) (a : Fin M) (c : Fin N) :
    ∑ q : d.contr.Idx, l (d.lhsIdx (ix2 a c) q) * r (d.rhsIdx (ix2 a c) q) = ∑ k : Fin K, l (ix2 a k) * r (ix2 k c) := by
  rw [← Equiv.sum_comp (contrEquiv1 d K hr hs).symm]
  refine Finset.sum_congr rfl fun k _ => ?_
  have hk := contrEquiv1_symm_val d K hr hs k
  have el : d.lhsIdx (ix2 a c) ((contrEquiv1 d K hr hs).symm k) = ix2 a k := funext fun x => Fin.ext (by
    match x with
    | ⟨0, _⟩ => exact hl0 _ _
    | ⟨1, _⟩ => exact (hl1 _ _).trans hk)
  have er : d.rhsIdx (ix2 a c) ((contrEquiv1 d K hr hs).symm k) = ix2 k c := funext fun x => Fin.ext (by
    match x with
    | ⟨0, _⟩ => exact (hr0 _ _).trans hk
    | ⟨1, _⟩ => exact hr1 _ _)
  rw [el, er]

/-- The host's dot_general at output index (r, c): the sum over k < K of l(r, k) · r(k, c). -/
theorem dotGeneral_apply_ix2 {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (l : FVec Ideal ⟨2, ![M, K]⟩ φ₁) (r : FVec Ideal ⟨2, ![K, N]⟩ φ₂) (a : Fin M) (c : Fin N) :
    Host.dotGeneral d prec l r (ix2 a c) = ∑ k : Fin K, l (ix2 a k) * r (ix2 k c) :=
  (Ideal.dotGeneral_apply d prec .single l r (ix2 a c)).trans (contraction_sum d hr hs hl0 hl1 hr0 hr1 l r a c)

/-- A sum over k < K₁ + K₂ splits at K₁ (any commutative monoid: no finiteness is asked of the terms). -/
theorem sum_split {A : Type*} [AddCommMonoid A] (K₁ K₂ : Nat) (f : Fin (K₁ + K₂) → A) :
    ∑ k : Fin (K₁ + K₂), f k = ∑ k : Fin K₁, f (Fin.castAdd K₂ k) + ∑ k : Fin K₂, f (Fin.natAdd K₁ k) :=
  Fin.sum_univ_add f

end Cert.Lib.PlainDot

end
-- ==== Proof.LibDenseLayer.lean ====
/-
  A dense layer at the extended reals, read one block of rows at a time.

  A matrix of M rows is cut into blocks of Mb consecutive rows. Every operation of a dense layer — a rows-by-columns
  product with a fixed right factor, an entrywise sum or maximum, the addition of one bias row to every row, a
  constant matrix — acts on each row by itself, so what it makes of a block of rows is the same block of rows of
  what it makes of the whole matrix. `RowBlk off xb X` says that `xb` is the block of `X` that starts at row
  `off`; the lemmas below carry that relation through each operation. No finiteness is asked of any entry: the
  two sides are the same sums of the same products.
-/
import Idealize.ShloMosaic.PureOps.Ideal.Laws
import Idealize.ShloMosaic.Lib.ValueIdx
import Idealize.ShloMosaic.Lib.Pipeline.Value
import proofs.«143525_j27771258536763_1_alg».proof.Proof.LibPlainDot

noncomputable section

open scoped BigOperators

namespace Cert.Lib.DenseLayer

open Idealize.ShloMosaic Idealize.ShloMosaic.ValueIdx Cert.Lib.PlainDot

/-- A rank-2 record that contracts the left operand's second axis with the right operand's first and has no
    batch axis: the six facts that read it as the textbook product. -/
structure Plain {M K N : Nat} (d : DotDims ⟨2, ![M, K]⟩ ⟨2, ![K, N]⟩ ⟨2, ![M, N]⟩) : Prop where
  rank : d.contr.rank = 1
  size : d.contr.size ⟨0, by omega⟩ = K
  l0 : ∀ (i : (⟨2, ![M, N]⟩ : Shape).Idx) (q : d.contr.Idx), (d.lhsIdx i q 0).val = (i 0).val
  l1 : ∀ (i : (⟨2, ![M, N]⟩ : Shape).Idx) (q : d.contr.Idx), (d.lhsIdx i q 1).val = (q ⟨0, by omega⟩).val
  r0 : ∀ (i : (⟨2, ![M, N]⟩ : Shape).Idx) (q : d.contr.Idx), (d.rhsIdx i q 0).val = (q ⟨0, by omega⟩).val
  r1 : ∀ (i : (⟨2, ![M, N]⟩ : Shape).Idx) (q : d.contr.Idx), (d.rhsIdx i q 1).val = (i 1).val

/-- The product at entry (r, c) is the sum over k of l(r, k) · w(k, c). -/
theorem Plain.dot_apply {M K N : Nat} {d : DotDims ⟨2, ![M, K]⟩ ⟨2, ![K, N]⟩ ⟨2, ![M, N]⟩} (hd : Plain d)
    (l : FVec Ideal ⟨2, ![M, K]⟩ .f32) (w : FVec Ideal ⟨2, ![K, N]⟩ .f32) (r : Fin M) (c : Fin N) :
    Host.dotGeneral d none l w (ix2 r c) = ∑ k : Fin K, l (ix2 r k) * w (ix2 k c) :=
  dotGeneral_apply_ix2 d hd.rank hd.size hd.l0 hd.l1 hd.r0 hd.r1 none l w r c

/-- `xb` is the block of `Mb` rows of `X` that starts at row `off`. -/
def RowBlk {Mb M K : Nat} (off : Nat) (xb : (⟨2, ![Mb, K]⟩ : Shape).Idx → EReal) (X : (⟨2, ![M, K]⟩ : Shape).Idx → EReal) : Prop :=
  ∀ (r : Fin Mb) (h : off + r.val < M) (k : Fin K), xb (ix2 r k) = X (ix2 ⟨off + r.val, h⟩ k)

/-- A block of rows times a matrix is the block of rows of the product. -/
theorem RowBlk.dot {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh)
    {xb : FVec Ideal ⟨2, ![Mb, K]⟩ .f32} {X : FVec Ideal ⟨2, ![M, K]⟩ .f32} (h : RowBlk off xb X)
    (w : FVec Ideal ⟨2, ![K, N]⟩ .f32) :
    RowBlk off (Host.dotGeneral db none xb w) (Host.dotGeneral dh none X w) := fun r hr c => by
  rw [hb.dot_apply, hh.dot_apply]
  exact Finset.sum_congr rfl fun k _ => congrArg (· * w (ix2 k c)) (h r hr k)

/-- The matrix unit's product of narrowed operands into the zero matrix, on a block of rows. -/
theorem RowBlk.matmul {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh)
    {xb : FVec Ideal ⟨2, ![Mb, K]⟩ .f32} {X : FVec Ideal ⟨2, ![M, K]⟩ .f32} (h : RowBlk off xb X)
    (w : FVec Ideal ⟨2, ![K, N]⟩ .f32) (h₁ : FTy.bf16.bits < FTy.f32.bits) (h₂ : FTy.bf16.bits < FTy.f32.bits) :
    RowBlk off (matmul db none (truncf .bf16 xb h₁) (truncf .bf16 w h₂) (constant ⟨2, ![Mb, N]⟩ .f32 0x00000000#32))
      (Host.dotGeneral dh none X w) := by
  rw [matmul_truncf_zero_eq_dotGeneral]
  exact h.dot hb hh w

/-- Entrywise sums of blocks of rows. -/
theorem RowBlk.add {Mb M K : Nat} {off : Nat} {a b : FVec Ideal ⟨2, ![Mb, K]⟩ .f32} {A B : FVec Ideal ⟨2, ![M, K]⟩ .f32}
    (ha : RowBlk off a A) (hb : RowBlk off b B) : RowBlk off (addf a b) (addf A B) := fun r hr k => by
  rw [addf_apply, addf_apply, ha r hr k, hb r hr k]

/-- Entrywise maxima of blocks of rows. -/
theorem RowBlk.max {Mb M K : Nat} {off : Nat} {a b : FVec Ideal ⟨2, ![Mb, K]⟩ .f32} {A B : FVec Ideal ⟨2, ![M, K]⟩ .f32}
    (ha : RowBlk off a A) (hb : RowBlk off b B) : RowBlk off (maximumf a b) (maximumf A B) := fun r hr k => by
  rw [maximumf_apply, maximumf_apply, ha r hr k, hb r hr k]

/-- Two constant matrices of one value. -/
theorem RowBlk.const {Mb M K : Nat} {off : Nat} {z : (⟨2, ![Mb, K]⟩ : Shape).Idx → EReal} {Z : (⟨2, ![M, K]⟩ : Shape).Idx → EReal}
    (v : EReal) (hz : ∀ i, z i = v) (hZ : ∀ i, Z i = v) : RowBlk off z Z := fun r hr k => (hz _).trans (hZ _).symm

/-- One bias row added to every row: inside the body a broadcast of the row to the block, on the host a
    broadcast along the rows to the whole matrix. -/
theorem RowBlk.bias {Mb M N : Nat} {off : Nat} (b : (⟨2, ![1, N]⟩ : Shape).Idx → EReal)
    (hb : (⟨2, ![1, N]⟩ : Shape).Broadcasts ⟨2, ![Mb, N]⟩)
    (hB : (⟨2, ![1, N]⟩ : Shape).BroadcastsInDim ⟨2, ![M, N]⟩ ![0, 1]) :
    RowBlk off (broadcastTo ⟨2, ![Mb, N]⟩ b hb) (broadcastInDim ⟨2, ![M, N]⟩ ![0, 1] hB b) := fun r hr c => by
  have hc : N = 1 → c.val = 0 := fun e => by have := c.isLt; omega
  rw [broadcastTo_apply b hb (ix2 r c) (ix2 0 c) (fun a => by
        match a with
        | ⟨0, _⟩ => exact (if_pos rfl).symm
        | ⟨1, _⟩ =>
          show c.val = if N = 1 then 0 else c.val
          split
          · exact hc ‹_›
          · rfl),
      broadcastInDim_apply ![0, 1] hB b (ix2 ⟨off + r.val, hr⟩ c) (ix2 0 c) (fun a => by
        match a with
        | ⟨0, _⟩ => exact (if_pos rfl).symm
        | ⟨1, _⟩ =>
          show c.val = if N = 1 then 0 else c.val
          split
          · exact hc ‹_›
          · rfl)]

/-- A block that is the whole matrix (one block, starting at row 0). -/
theorem RowBlk.whole {M K : Nat} (X : (⟨2, ![M, K]⟩ : Shape).Idx → EReal) : RowBlk 0 X X := fun r hr k => by
  have : (⟨0 + r.val, hr⟩ : Fin M) = r := Fin.ext (Nat.zero_add _)
  rw [this]

/-- A vector of n entries made a 1×n row — by a reshape, or by a broadcast along a new unit axis — is one and the
    same row. -/
theorem addUnit_eq_bcast {α : Type} {n : Nat} (hn : n ≠ 1) (b : (⟨1, ![n]⟩ : Shape).Idx → α)
    (hs : (⟨1, ![n]⟩ : Shape).ShapeCasts ⟨2, ![1, n]⟩) (hb : (⟨1, ![n]⟩ : Shape).BroadcastsInDim ⟨2, ![1, n]⟩ ![1]) :
    shapeCast ⟨2, ![1, n]⟩ b hs = broadcastInDim ⟨2, ![1, n]⟩ ![1] hb b := funext fun j =>
  (shapeCast_addUnit_apply ![n] b hs j).trans
    (broadcastInDim_apply ![1] hb b j (fun a => j a.succ) (fun a => by
      match a with
      | ⟨0, _⟩ => exact (if_neg hn).symm)).symm

end Cert.Lib.DenseLayer

end
-- ==== Proof.LibPlainRecord.lean ====
/-
  A rank-2 product record whose dimension numbers are the plain ones — the left operand's second axis contracted with the
  right operand's first, no batch axis, the left rows then the right columns kept — reads as the textbook product:
  its contraction has one axis of extent K, the left operand is read at (row, k) and the right at (k, column).
-/
import proofs.«143525_j27771258536763_1_alg».proof.Proof.LibDenseLayer

noncomputable section

namespace Cert.Lib.DenseLayer

open Idealize.ShloMosaic Idealize.ShloMosaic.ValueIdx

/-- The six coordinate facts from the six lists of the dimension numbers. -/
theorem Plain.of_fields {M K N : Nat} (d : DotDims ⟨2, ![M, K]⟩ ⟨2, ![K, N]⟩ ⟨2, ![M, N]⟩)
    (h1 : d.lhsContracting = [1]) (h2 : d.rhsContracting = [0]) (h3 : d.lhsNonContracting = [0]) (h4 : d.rhsNonContracting = [1])
    (h5 : d.lhsBatch = []) (h6 : d.rhsBatch = []) : Plain d where
  rank := by rw [d.rank_contr, h1]; rfl
  size := by
    have : d.contr = Shape.ofList ([1].map (⟨2, ![M, K]⟩ : Shape).size) := by unfold DotDims.contr; rw [h1]
    rw [show d.contr.size ⟨0, by rw [d.rank_contr, h1]; exact Nat.one_pos⟩ = K from by
      unfold DotDims.contr; simp [h1, Shape.ofList]]
  l0 := fun i q => by
    have key : ∀ (n : Nat) (hn : n < 2), n = 0 → (i ⟨n, hn⟩).val = (i 0).val := fun n hn h0 => by subst h0; rfl
    unfold DotDims.lhsIdx
    simp only [h5, h3, List.not_mem_nil, dite_false, List.mem_singleton, dite_true, Fin.val_cast]
    exact key _ _ (by simp [h5, h3])
  l1 := fun i q => d.lhsIdx_val_of_single h1 i q
  r0 := fun i q => d.rhsIdx_val_of_single h2 i q
  r1 := fun i q => by
    have key : ∀ (n : Nat) (hn : n < 2), n = 1 → (i ⟨n, hn⟩).val = (i 1).val := fun n hn h0 => by subst h0; rfl
    unfold DotDims.rhsIdx
    simp only [h6, h4, List.not_mem_nil, dite_false, List.mem_singleton, dite_true, Fin.val_cast]
    exact key _ _ (by simp [h5, h3, h4])

/-- Entrywise products of blocks of rows. -/
theorem RowBlk.mul {Mb M K : Nat} {off : Nat} {a b : FVec Ideal ⟨2, ![Mb, K]⟩ .f32} {A B : FVec Ideal ⟨2, ![M, K]⟩ .f32}
    (ha : RowBlk off a A) (hb : RowBlk off b B) : RowBlk off (mulf a b) (mulf A B) := fun r hr k => by
  rw [mulf_apply, mulf_apply, ha r hr k, hb r hr k]

/-- A reshape to the same shape changes nothing. -/
theorem RowBlk.castSelf {Mb M K : Nat} {off : Nat} {a : (⟨2, ![Mb, K]⟩ : Shape).Idx → EReal} {A : (⟨2, ![M, K]⟩ : Shape).Idx → EReal}
    (ha : RowBlk off a A) (h : (⟨2, ![Mb, K]⟩ : Shape).ShapeCasts ⟨2, ![Mb, K]⟩) : RowBlk off (shapeCast ⟨2, ![Mb, K]⟩ a h) A := by
  rw [shapeCast_self]; exact ha

/-- An entrywise function of a block of rows. -/
theorem RowBlk.map {Mb M K : Nat} {off : Nat} {a : (⟨2, ![Mb, K]⟩ : Shape).Idx → EReal} {A : (⟨2, ![M, K]⟩ : Shape).Idx → EReal}
    (ha : RowBlk off a A) (f : EReal → EReal) : RowBlk off (fun i => f (a i)) (fun i => f (A i)) := fun r hr k => by
  show f (a (ix2 r k)) = f (A (ix2 ⟨off + r.val, hr⟩ k)); rw [ha r hr k]

end Cert.Lib.DenseLayer

end
-- ==== Proof.LibKeepdimsColumn.lean ====
/-
  A per-row quantity carried back to a matrix's shape through a column.

  A reduction along the columns of an [a, b] matrix leaves a vector of a numbers, one per row. To combine it with the
  matrix again it is reshaped to an [a, 1] column and broadcast along the columns to [a, b]. Entry (p, q) of the
  result is the p-th number, whatever q: the reshape keeps the row-major position p, and the broadcast reads the
  column's only entry of row p. Stated for any extents a and b and any element type; nothing is computed.
-/
import Idealize.ShloMosaic.Lib.Pipeline.Value
import Idealize.ShloMosaic.Lib.ValueIdx

noncomputable section

namespace Cert.Lib.KeepdimsColumn

open Idealize.ShloMosaic Idealize.ShloMosaic.ValueIdx

/-- The [a] → [a, 1] reshape, entry (p, 0): the p-th number. -/
theorem column_cast_at {α : Type} {a : Nat} (u : (⟨1, ![a]⟩ : Shape).Idx → α)
    (h : (⟨1, ![a]⟩ : Shape).ShapeCasts ⟨2, ![a, 1]⟩) (p : Fin a) :
    shapeCast ⟨2, ![a, 1]⟩ u h (ix2 (n0 := a) (n1 := 1) p ⟨0, Nat.one_pos⟩) = u (ix1 p) :=
  shapeCast_apply u h _ (ix1 p) (by
    rw [Shape.rowMajor_val_one, Shape.rowMajor_val_two]
    show p.val = p.val * 1 + 0
    omega)

/-- The [a, 1] → [a, b] broadcast, entry (p, q): the column's entry of row p. -/
theorem column_broadcast_at {α : Type} {a b : Nat} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 (n0 := a) (n1 := 1) p ⟨0, Nat.one_pos⟩) :=
  broadcastTo_apply v h (ix2 p q) _ (fun d => by
    match d with
    | ⟨0, _⟩ =>
      show p.val = if a = 1 then 0 else p.val
      split
      · have := p.isLt; omega
      · rfl
    | ⟨1, _⟩ =>
      show 0 = if (1 : Nat) = 1 then 0 else q.val
      rw [if_pos rfl])

/-- Both together: a vector of a numbers turned into a column and broadcast along the columns reads, at (p, q), the
    p-th number. -/
theorem column_at {α : Type} {a b : Nat} (u : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ u hc) hb (ix2 p q) = u (ix1 p) :=
  (column_broadcast_at _ hb p q).trans (column_cast_at u hc p)

end Cert.Lib.KeepdimsColumn

end
-- ==== Proof.LibOuterBlock.lean ====
/-
  Blocks of rows of a matrix built from one column and one row.

  A matrix of M rows and N columns whose entry (r, c) is made of the r-th number of a column and the c-th number of
  a row (an outer product, or any entrywise function of the two) is read here one block of rows at a time, in the
  same sense as for a dense layer: `RowBlk off xb X` says that `xb` is the block of `X` that starts at row `off`.

  * A column carried along the columns keeps the relation: inside a body the block's own column is broadcast to the
    block, on the host the whole column is broadcast to the whole matrix, and row `off + r` of the second is row `r`
    of the first.
  * A vector of n numbers made an n×1 column — by a reshape, which keeps the row-major position, or by a broadcast
    along a new trailing unit axis — is one and the same column.
  Stated for any extents; no finiteness is asked of any entry, nothing is computed.
-/
import proofs.«143525_j27771258536763_1_alg».proof.Proof.LibPlainRecord
import proofs.«143525_j27771258536763_1_alg».proof.Proof.LibKeepdimsColumn

noncomputable section

namespace Cert.Lib.DenseLayer

open Idealize.ShloMosaic Idealize.ShloMosaic.ValueIdx

/-- A column broadcast along the columns: the block of the broadcast is the broadcast of the block's column. -/
theorem RowBlk.col {Mb M N : Nat} {off : Nat} {vb : (⟨2, ![Mb, 1]⟩ : Shape).Idx → EReal}
    {V : (⟨2, ![M, 1]⟩ : Shape).Idx → EReal} (h : RowBlk off vb V)
    (hb : (⟨2, ![Mb, 1]⟩ : Shape).Broadcasts ⟨2, ![Mb, N]⟩)
    (hB : (⟨2, ![M, 1]⟩ : Shape).BroadcastsInDim ⟨2, ![M, N]⟩ ![0, 1]) :
    RowBlk off (broadcastTo ⟨2, ![Mb, N]⟩ vb hb) (broadcastInDim ⟨2, ![M, N]⟩ ![0, 1] hB V) := fun r hr c => by
  rw [Cert.Lib.KeepdimsColumn.column_broadcast_at vb hb r c,
    broadcastInDim_apply ![0, 1] hB V (ix2 ⟨off + r.val, hr⟩ c) (ix2 (n0 := M) (n1 := 1) ⟨off + r.val, hr⟩ ⟨0, Nat.one_pos⟩)
      (fun a => by
        match a with
        | ⟨0, _⟩ =>
          show off + r.val = if M = 1 then 0 else off + r.val
          split
          · omega
          · rfl
        | ⟨1, _⟩ =>
          show 0 = if (1 : Nat) = 1 then 0 else c.val
          rw [if_pos rfl])]
  exact h r hr ⟨0, Nat.one_pos⟩

/-- A vector of n entries made an n×1 column — by a reshape, or by a broadcast along a new trailing unit axis — is
    one and the same column. -/
theorem trailUnit_eq_bcast {α : Type} {n : Nat} (hn : n ≠ 1) (u : (⟨1, ![n]⟩ : Shape).Idx → α)
    (hs : (⟨1, ![n]⟩ : Shape).ShapeCasts ⟨2, ![n, 1]⟩) (hb : (⟨1, ![n]⟩ : Shape).BroadcastsInDim ⟨2, ![n, 1]⟩ ![0]) :
    shapeCast ⟨2, ![n, 1]⟩ u hs = broadcastInDim ⟨2, ![n, 1]⟩ ![0] hb u := funext fun j => by
  obtain ⟨p, q, rfl⟩ : ∃ (p : Fin n) (q : Fin 1), j = ix2 p q := ⟨j 0, j 1, eq_ix2 j⟩
  have hq : q = ⟨0, Nat.one_pos⟩ := Fin.ext (by have := q.isLt; omega)
  subst hq
  rw [Cert.Lib.KeepdimsColumn.column_cast_at u hs p,
    broadcastInDim_apply ![0] hb u (ix2 (n0 := n) (n1 := 1) p ⟨0, Nat.one_pos⟩) (ix1 p) (fun a => by
      match a with
      | ⟨0, _⟩ => exact (if_neg hn).symm)]

end Cert.Lib.DenseLayer

end
-- ==== Proof.BlockLayers.lean ====
/-
  What each kernel body makes of a block of rows is that block of rows of the host's term.

  Both bodies act row by row. The edge body forms max(w[e] · weights[d], 0) from a block of 8000 entries of the
  column w and the whole row of weights; the node body forms max((x · Wxᵀ + hw · Wwᵀ) + (hf · Wfᵀ + b), 0) from blocks
  of 2000 rows of x, hw and hf and the whole parameter arrays. In the extended reals the narrowing casts in front of
  the matrix unit are the identity and its zero accumulator adds nothing, so each of the body's operations is the
  host's operation on the rows it is given: if the blocks the body reads start at row `off` of the whole arrays, the
  block it writes starts at row `off` of the host's whole result. No finiteness is used.
-/
import proofs.«143525_j27771258536763_1_alg».proof.Proof.Gen.KernelIdeal.Skeleton
import proofs.«143525_j27771258536763_1_alg».proof.Proof.HostTerms
import proofs.«143525_j27771258536763_1_alg».proof.Proof.LibOuterBlock

noncomputable section

namespace Cert.Layer

open Idealize.ShloMosaic Idealize.ShloMosaic.ValueIdx Cert.Lib.DenseLayer

/-- The four product records contract the left operand's columns with the right operand's rows. -/
theorem plain_body4 : Plain Cert.KernelIdeal.dot_S2000x4_S4x32_S2000x32_1_0_0_1_n_n := Plain.of_fields _ rfl rfl rfl rfl rfl rfl
theorem plain_body32 : Plain Cert.KernelIdeal.dot_S2000x32_S32x32_S2000x32_1_0_0_1_n_n := Plain.of_fields _ rfl rfl rfl rfl rfl rfl
theorem plain_host4 : Plain Cert.ReferenceIdeal.dot_S100000x4_S4x32_S100000x32_1_0_0_1_n_n := Plain.of_fields _ rfl rfl rfl rfl rfl rfl
theorem plain_host32 : Plain Cert.ReferenceIdeal.dot_S100000x32_S32x32_S100000x32_1_0_0_1_n_n := Plain.of_fields _ rfl rfl rfl rfl rfl rfl

/-- The edge body on a block of the column w: the same block of rows of g. -/
theorem edge_block {off : Nat} (wb : Vec Ideal Cert.KernelIdeal.S8000x1 .f32) (wt : Vec Ideal Cert.KernelIdeal.S1x32 .f32)
    (W1 : (⟨Cert.ReferenceIdeal.S1600000x1, .f32⟩ : BufTy).Contents (Elt Ideal)) (h : RowBlk off wb W1) :
    RowBlk off (Cert.KernelIdeal.Gen.k0_pay1 (F := Ideal) wb wt) (edgeArr W1 wt) := by
  have e : Cert.KernelIdeal.Gen.k0_pay1 (F := Ideal) wb wt
      = maximumf (mulf (broadcastTo Cert.KernelIdeal.S8000x32 wb Cert.KernelIdeal.Facts₀.broadcasts_S8000x1_S8000x32)
          (broadcastTo Cert.KernelIdeal.S8000x32 wt Cert.KernelIdeal.Facts₀.broadcasts_S1x32_S8000x32))
        (broadcast Cert.KernelIdeal.S8000x32 (Scalar.ofBits .f32 0x00000000#32)) := by
    unfold Cert.KernelIdeal.Gen.k0_pay1
    simp only [shapeCast_self]
  rw [e]
  unfold edgeArr
  exact RowBlk.max (RowBlk.mul (h.col _ _) (RowBlk.bias wt _ _))
    (RowBlk.const (Ideal.ofBits .f32 0x00000000#32) (fun _ => rfl) (fun _ => rfl))

/-- The node body on blocks of rows of x, hw and hf: the same block of rows of the combined output. -/
theorem combine_block {off : Nat} (xb : Vec Ideal Cert.KernelIdeal.S2000x4 .f32) (hwb hfb : Vec Ideal Cert.KernelIdeal.S2000x32 .f32)
    (X : (⟨Cert.ReferenceIdeal.S100000x4, .f32⟩ : BufTy).Contents (Elt Ideal))
    (HW HF : (⟨Cert.ReferenceIdeal.S100000x32, .f32⟩ : BufTy).Contents (Elt Ideal))
    (hx : RowBlk off xb X) (hhw : RowBlk off hwb HW) (hhf : RowBlk off hfb HF)
    (Wx : Vec Ideal Cert.KernelIdeal.S32x4 .f32) (Ww Wf : Vec Ideal Cert.KernelIdeal.S32x32 .f32) (b : Vec Ideal Cert.KernelIdeal.S1x32 .f32) :
    RowBlk off (Cert.KernelIdeal.Gen.k1_pay1 (F := Ideal) xb Wx hwb Ww hfb Wf b) (combine X HW HF Wx Ww Wf b) := by
  have e : Cert.KernelIdeal.Gen.k1_pay1 (F := Ideal) xb Wx hwb Ww hfb Wf b
      = maximumf (addf (addf
            (matmul Cert.KernelIdeal.dot_S2000x4_S4x32_S2000x32_1_0_0_1_n_n none (truncf .bf16 xb Cert.KernelIdeal.Facts₀.bitsLt_bf16_f32)
              (truncf .bf16 (transpose Cert.KernelIdeal.S4x32 [1, 0] Wx Cert.KernelIdeal.Facts₀.transposes_S32x4_p1_0_S4x32) Cert.KernelIdeal.Facts₀.bitsLt_bf16_f32)
              (constant Cert.KernelIdeal.S2000x32 .f32 0x00000000#32))
            (matmul Cert.KernelIdeal.dot_S2000x32_S32x32_S2000x32_1_0_0_1_n_n none (truncf .bf16 hwb Cert.KernelIdeal.Facts₀.bitsLt_bf16_f32)
              (truncf .bf16 (transpose Cert.KernelIdeal.S32x32 [1, 0] Ww Cert.KernelIdeal.Facts₀.transposes_S32x32_p1_0_S32x32) Cert.KernelIdeal.Facts₀.bitsLt_bf16_f32)
              (constant Cert.KernelIdeal.S2000x32 .f32 0x00000000#32)))
          (addf
            (matmul Cert.KernelIdeal.dot_S2000x32_S32x32_S2000x32_1_0_0_1_n_n none (truncf .bf16 hfb Cert.KernelIdeal.Facts₀.bitsLt_bf16_f32)
              (truncf .bf16 (transpose Cert.KernelIdeal.S32x32 [1, 0] Wf Cert.KernelIdeal.Facts₀.transposes_S32x32_p1_0_S32x32) Cert.KernelIdeal.Facts₀.bitsLt_bf16_f32)
              (constant Cert.KernelIdeal.S2000x32 .f32 0x00000000#32))
            (broadcastTo Cert.KernelIdeal.S2000x32 b Cert.KernelIdeal.Facts₀.broadcasts_S1x32_S2000x32)))
        (broadcast Cert.KernelIdeal.S2000x32 (Scalar.ofBits .f32 0x00000000#32)) := by
    unfold Cert.KernelIdeal.Gen.k1_pay1
    simp only [shapeCast_self]
    rfl
  rw [e]
  unfold combine
  exact RowBlk.max
    (RowBlk.add
      (RowBlk.add (hx.matmul plain_body4 plain_host4 _ _ _) (hhw.matmul plain_body32 plain_host32 _ _ _))
      (RowBlk.add (hhf.matmul plain_body32 plain_host32 _ _ _) (RowBlk.bias b _ _)))
    (RowBlk.const (Ideal.ofBits .f32 0x00000000#32) (fun _ => rfl) (fun _ => rfl))

end Cert.Layer

end
-- ==== Proof.EdgeRegion.lean ====
/-
  The edge-side region: what its output array holds after all two hundred grid points.

  Grid point t stages entries 8000·t … 8000·t + 7999 of the column of edge weights and the whole row of the layer's
  weights, and writes rows 8000·t … 8000·t + 7999 of the edge array g. The body makes of a block of the column the
  same block of rows of the host's g (`edge_block`), so every point writes back a block of ONE whole-array function,
  and the two hundred blocks cover all 1600000 rows: the output array is that function of the column and the row the
  region finds at its entry (`V`, a parameter).
-/
import proofs.«143525_j27771258536763_1_alg».proof.Proof.Gen.KernelIdeal.Frame
import proofs.«143525_j27771258536763_1_alg».proof.Proof.BlockLayers
import Idealize.ShloMosaic.Lib.Pipeline.Value

set_option maxRecDepth 16384

noncomputable section

namespace Cert.Layer.Edge

open Cert.KernelIdeal Cert.KernelIdeal.Gen Idealize.ShloMosaic Idealize.ShloMosaic.TcCoe Idealize.SL.Sem
open Idealize.ShloMosaic.ValueIdx Cert.Lib.DenseLayer
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the two hundred points: the column and the output sit at block (t, 0), the row of
    weights at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem t_lt (t : Fin cfg0.N) : t.val < 200 := lt_of_lt_of_eq t.isLt N_0

/-- Point t's block of the column is its entries from 8000·t on. -/
theorem rows_w (c : Dev nD) (t : Fin cfg0.N) :
    RowBlk (Mb := 8000) (M := 1600000) (K := 1) (8000 * t.val) (iblk0 V c 0 t) (V c main_v0) := fun r hr k => by
  obtain ⟨e0, e1, -⟩ := idx_facts t
  show V c main_v0 (((cfg0.win 0).blk t).view.emb (ix2 r k)) = V c main_v0 (ix2 ⟨8000 * t.val + r.val, hr⟩ k)
  refine congrArg (V c main_v0) (funext fun a => Fin.ext ?_)
  match a with
  | ⟨0, _⟩ => show win0_0.index t (0 : Fin 2) * 8000 + 1 * r.val = 8000 * t.val + r.val; omega
  | ⟨1, _⟩ => show win0_0.index t (1 : Fin 2) * 1 + 1 * k.val = k.val; omega

/-- The row of weights is staged whole at every point. -/
theorem whole_wt (c : Dev nD) (t : Fin cfg0.N) : (iblk0 V c 1 t : S1x32.Idx → EReal) = V c main_v1 := funext fun j => by
  obtain ⟨-, -, e0, e1, -⟩ := idx_facts t
  show V c main_v1 (((cfg0.win 1).blk t).view.emb j) = V c main_v1 j
  refine congrArg (V c main_v1) (funext fun a => Fin.ext ?_)
  match a with
  | ⟨0, _⟩ => show win0_1.index t (0 : Fin 2) * 1 + 1 * (j 0).val = (j 0).val; omega
  | ⟨1, _⟩ => show win0_1.index t (1 : Fin 2) * 32 + 1 * (j 1).val = (j 1).val; omega

/-- The output array as one function of the column and the row the region finds. -/
abbrev outArr (c : Dev nD) : S1600000x32.Idx → EReal := edgeArr (V c main_v0) (V c main_v1)

/-- WHAT POINT t WRITES BACK is its block of rows of `outArr`. -/
theorem flushed_eq (c : Dev nD) (t : Fin cfg0.N) :
    (dat0 V c).flushed 2 t = ((cfg0.win 2).blk t).view.read (Elt Ideal) (outArr V c) := by
  show (cfg0.win 2).cut (grid0.coords t) ((dat0 V c).after 2 t) = _
  rw [after0_2]
  unfold out0_2
  rw [View.canon_unit_zero hz]
  simp only [View.ld_unit_zero (S := S8000x1) hz, View.ld_unit_zero (S := S1x32) hz]
  funext j
  show k0_pay1 (iblk0 V c 0 t) (iblk0 V c 1 t) j = outArr V c (((cfg0.win 2).blk t).view.emb j)
  obtain ⟨r, d, rfl⟩ : ∃ (r : Fin 8000) (d : Fin 32), j = ix2 r d := ⟨j 0, j 1, eq_ix2 j⟩
  have ht := t_lt t
  have hr : 8000 * t.val + r.val < 1600000 := by have := r.isLt; omega
  refine (edge_block (iblk0 V c 0 t) (iblk0 V c 1 t) (V c main_v0) (rows_w V c t) r hr d).trans ?_
  rw [whole_wt V c t]
  obtain ⟨-, -, -, -, e0, e1⟩ := idx_facts t
  refine congrArg (outArr V c) (funext fun a => Fin.ext ?_)
  match a with
  | ⟨0, _⟩ => show 8000 * t.val + r.val = win0_2.index t (0 : Fin 2) * 8000 + 1 * r.val; omega
  | ⟨1, _⟩ => show d.val = win0_2.index t (1 : Fin 2) * 32 + 1 * d.val; omega

/-- An index of the array is in point t's block iff each coordinate is in the block's range on its axis. -/
theorem mem_blk (t : Fin cfg0.N) (i : S1600000x32.Idx) :
    i ∈ ((cfg0.win 2).blk t).view.set ↔ ∀ a : Fin 2, win0_2.index t a * S8000x32.size a ≤ (i a).val ∧ (i a).val < win0_2.index t a * S8000x32.size a + S8000x32.size a := by
  show i ∈ ((View.whole main_v2).slice (win0_2.rect t)).set ↔ _
  rw [View.set_slice_whole, Rect.mem_set_unit]
  exact Iff.rfl

/-- Row e lies in the block of point e / 8000: the two hundred blocks cover the array. -/
theorem cover (i : S1600000x32.Idx) : ∃ t : Fin cfg0.N, (cfg0.win 2).flush t = true ∧ i ∈ ((cfg0.win 2).blk t).view.set := by
  have hi0 : (i 0).val < 1600000 := (i 0).isLt
  have hi1 : (i 1).val < 32 := (i 1).isLt
  have hN : (i 0).val / 8000 < cfg0.N := lt_of_lt_of_eq (by omega : (i 0).val / 8000 < 200) N_0.symm
  obtain ⟨-, -, -, -, e0, e1⟩ := idx_facts ⟨(i 0).val / 8000, hN⟩
  refine ⟨⟨(i 0).val / 8000, hN⟩, flush0_2 _, ?_⟩
  rw [mem_blk]
  intro a
  match a with
  | ⟨0, _⟩ =>
    show win0_2.index ⟨(i 0).val / 8000, hN⟩ (0 : Fin 2) * 8000 ≤ (i 0).val ∧ (i 0).val < win0_2.index ⟨(i 0).val / 8000, hN⟩ (0 : Fin 2) * 8000 + 8000
    rw [e0]; show (i 0).val / 8000 * 8000 ≤ (i 0).val ∧ (i 0).val < (i 0).val / 8000 * 8000 + 8000; omega
  | ⟨1, _⟩ =>
    show win0_2.index ⟨(i 0).val / 8000, hN⟩ (1 : Fin 2) * 32 ≤ (i 1).val ∧ (i 1).val < win0_2.index ⟨(i 0).val / 8000, hN⟩ (1 : Fin 2) * 32 + 32
    rw [e1]; omega

/-- THE OUTPUT ARRAY after the two hundred points: g of the column and the row the region finds. -/
theorem final (c : Dev nD) : (dat0 V c).arrAt 2 cfg0.N = outArr V c :=
  (dat0 V c).arrAt_eq_of_cover 2 (outArr V c) (fun t _ => flushed_eq V c t) cover

end Cert.Layer.Edge

end
-- ==== Proof.NodeRegion.lean ====
/-
  The node-side region: what its output array holds after all fifty grid points.

  Grid point t stages rows 2000·t … 2000·t + 1999 of x, of the aggregated edge array hw and of the aggregated features
  hf, and the whole of Wx, Ww, Wf and the bias row; it writes rows 2000·t … 2000·t + 1999 of the output. Since the body
  makes of a block of rows the same block of rows of the host's combined term (`combine_block`), every point writes
  back a block of ONE whole-array function, and the fifty blocks cover all 100000 rows: the output array is that
  function of the arrays the region finds at its entry (`V`, a parameter).
-/
import proofs.«143525_j27771258536763_1_alg».proof.Proof.Gen.KernelIdeal.Frame
import proofs.«143525_j27771258536763_1_alg».proof.Proof.BlockLayers
import Idealize.ShloMosaic.Lib.Pipeline.Value

set_option maxRecDepth 16384

noncomputable section

namespace Cert.Layer.Node

open Cert.KernelIdeal Cert.KernelIdeal.Gen Idealize.ShloMosaic Idealize.ShloMosaic.TcCoe Idealize.SL.Sem
open Idealize.ShloMosaic.ValueIdx Cert.Lib.DenseLayer
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the fifty points: the row-blocked windows sit at block (t, 0), the whole-array
    windows at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

theorem t_lt (t : Fin cfg1.N) : t.val < 50 := lt_of_lt_of_eq t.isLt N_1

/-- Point t's block of x is the rows of x from 2000·t on. -/
theorem rows_x (c : Dev nD) (t : Fin cfg1.N) :
    RowBlk (Mb := 2000) (M := 100000) (K := 4) (2000 * t.val) (iblk1 V c 0 t) (V c main_arg0) := fun r hr k => by
  obtain ⟨e0, e1, -⟩ := idx_facts t
  show V c main_arg0 (((cfg1.win 0).blk t).view.emb (ix2 r k)) = V c main_arg0 (ix2 ⟨2000 * t.val + r.val, hr⟩ k)
  refine congrArg (V c main_arg0) (funext fun a => Fin.ext ?_)
  match a with
  | ⟨0, _⟩ => show win1_0.index t (0 : Fin 2) * 2000 + 1 * r.val = 2000 * t.val + r.val; omega
  | ⟨1, _⟩ => show win1_0.index t (1 : Fin 2) * 4 + 1 * k.val = k.val; omega

/-- Point t's block of the aggregated edge array is its rows from 2000·t on. -/
theorem rows_hw (c : Dev nD) (t : Fin cfg1.N) :
    RowBlk (Mb := 2000) (M := 100000) (K := 32) (2000 * t.val) (iblk1 V c 1 t) (V c main_v5) := fun r hr k => by
  obtain ⟨-, -, e0, e1, -⟩ := idx_facts t
  show V c main_v5 (((cfg1.win 1).blk t).view.emb (ix2 r k)) = V c main_v5 (ix2 ⟨2000 * t.val + r.val, hr⟩ k)
  refine congrArg (V c main_v5) (funext fun a => Fin.ext ?_)
  match a with
  | ⟨0, _⟩ => show win1_1.index t (0 : Fin 2) * 2000 + 1 * r.val = 2000 * t.val + r.val; omega
  | ⟨1, _⟩ => show win1_1.index t (1 : Fin 2) * 32 + 1 * k.val = k.val; omega

/-- Point t's block of the aggregated features is its rows from 2000·t on. -/
theorem rows_hf (c : Dev nD) (t : Fin cfg1.N) :
    RowBlk (Mb := 2000) (M := 100000) (K := 32) (2000 * t.val) (iblk1 V c 2 t) (V c main_v15) := fun r hr k => by
  obtain ⟨-, -, -, -, e0, e1, -⟩ := idx_facts t
  show V c main_v15 (((cfg1.win 2).blk t).view.emb (ix2 r k)) = V c main_v15 (ix2 ⟨2000 * t.val + r.val, hr⟩ k)
  refine congrArg (V c main_v15) (funext fun a => Fin.ext ?_)
  match a with
  | ⟨0, _⟩ => show win1_2.index t (0 : Fin 2) * 2000 + 1 * r.val = 2000 * t.val + r.val; omega
  | ⟨1, _⟩ => show win1_2.index t (1 : Fin 2) * 32 + 1 * k.val = k.val; omega

/-- The parameter windows stage their whole arrays at every point. -/
theorem whole_Wx (c : Dev nD) (t : Fin cfg1.N) : (iblk1 V c 3 t : S32x4.Idx → EReal) = V c main_arg5 := funext fun j => by
  obtain ⟨-, -, -, -, -, -, e0, e1, -⟩ := idx_facts t
  show V c main_arg5 (((cfg1.win 3).blk t).view.emb j) = V c main_arg5 j
  refine congrArg (V c main_arg5) (funext fun a => Fin.ext ?_)
  match a with
  | ⟨0, _⟩ => show win1_3.index t (0 : Fin 2) * 32 + 1 * (j 0).val = (j 0).val; omega
  | ⟨1, _⟩ => show win1_3.index t (1 : Fin 2) * 4 + 1 * (j 1).val = (j 1).val; omega

theorem whole_Ww (c : Dev nD) (t : Fin cfg1.N) : (iblk1 V c 4 t : S32x32.Idx → EReal) = V c main_arg6 := funext fun j => by
  obtain ⟨-, -, -, -, -, -, -, -, e0, e1, -⟩ := idx_facts t
  show V c main_arg6 (((cfg1.win 4).blk t).view.emb j) = V c main_arg6 j
  refine congrArg (V c main_arg6) (funext fun a => Fin.ext ?_)
  match a with
  | ⟨0, _⟩ => show win1_4.index t (0 : Fin 2) * 32 + 1 * (j 0).val = (j 0).val; omega
  | ⟨1, _⟩ => show win1_4.index t (1 : Fin 2) * 32 + 1 * (j 1).val = (j 1).val; omega

theorem whole_Wf (c : Dev nD) (t : Fin cfg1.N) : (iblk1 V c 5 t : S32x32.Idx → EReal) = V c main_arg7 := funext fun j => by
  obtain ⟨-, -, -, -, -, -, -, -, -, -, e0, e1, -⟩ := idx_facts t
  show V c main_arg7 (((cfg1.win 5).blk t).view.emb j) = V c main_arg7 j
  refine congrArg (V c main_arg7) (funext fun a => Fin.ext ?_)
  match a with
  | ⟨0, _⟩ => show win1_5.index t (0 : Fin 2) * 32 + 1 * (j 0).val = (j 0).val; omega
  | ⟨1, _⟩ => show win1_5.index t (1 : Fin 2) * 32 + 1 * (j 1).val = (j 1).val; omega

theorem whole_b (c : Dev nD) (t : Fin cfg1.N) : (iblk1 V c 6 t : S1x32.Idx → EReal) = V c main_v16 := funext fun j => by
  obtain ⟨-, -, -, -, -, -, -, -, -, -, -, -, e0, e1, -⟩ := idx_facts t
  show V c main_v16 (((cfg1.win 6).blk t).view.emb j) = V c main_v16 j
  refine congrArg (V c main_v16) (funext fun a => Fin.ext ?_)
  match a with
  | ⟨0, _⟩ => show win1_6.index t (0 : Fin 2) * 1 + 1 * (j 0).val = (j 0).val; omega
  | ⟨1, _⟩ => show win1_6.index t (1 : Fin 2) * 32 + 1 * (j 1).val = (j 1).val; omega

/-- The output array as one function of the arrays the region finds. -/
abbrev outArr (c : Dev nD) : S100000x32.Idx → EReal :=
  combine (V c main_arg0) (V c main_v5) (V c main_v15) (V c main_arg5) (V c main_arg6) (V c main_arg7) (V c main_v16)

/-- WHAT POINT t WRITES BACK is its block of rows of `outArr`. -/
theorem flushed_eq (c : Dev nD) (t : Fin cfg1.N) :
    (dat1 V c).flushed 7 t = ((cfg1.win 7).blk t).view.read (Elt Ideal) (outArr V c) := by
  show (cfg1.win 7).cut (grid1.coords t) ((dat1 V c).after 7 t) = _
  rw [after1_7]
  unfold out1_7
  rw [View.canon_unit_zero hz]
  simp only [View.ld_unit_zero (S := S2000x4) hz, View.ld_unit_zero (S := S32x4) hz, View.ld_unit_zero (S := S2000x32) hz,
    View.ld_unit_zero (S := S32x32) hz, View.ld_unit_zero (S := S1x32) hz]
  funext j
  show k1_pay1 (iblk1 V c 0 t) (iblk1 V c 3 t) (iblk1 V c 1 t) (iblk1 V c 4 t) (iblk1 V c 2 t) (iblk1 V c 5 t) (iblk1 V c 6 t) j
    = outArr V c (((cfg1.win 7).blk t).view.emb j)
  obtain ⟨r, d, rfl⟩ : ∃ (r : Fin 2000) (d : Fin 32), j = ix2 r d := ⟨j 0, j 1, eq_ix2 j⟩
  have ht := t_lt t
  have hr : 2000 * t.val + r.val < 100000 := by have := r.isLt; omega
  refine (combine_block (iblk1 V c 0 t) (iblk1 V c 1 t) (iblk1 V c 2 t) (V c main_arg0) (V c main_v5) (V c main_v15)
    (rows_x V c t) (rows_hw V c t) (rows_hf V c t) (iblk1 V c 3 t) (iblk1 V c 4 t) (iblk1 V c 5 t) (iblk1 V c 6 t) r hr d).trans ?_
  rw [whole_Wx V c t, whole_Ww V c t, whole_Wf V c t, whole_b V c t]
  obtain ⟨-, -, -, -, -, -, -, -, -, -, -, -, -, -, e0, e1⟩ := idx_facts t
  refine congrArg (outArr V c) (funext fun a => Fin.ext ?_)
  match a with
  | ⟨0, _⟩ => show 2000 * t.val + r.val = win1_7.index t (0 : Fin 2) * 2000 + 1 * r.val; omega
  | ⟨1, _⟩ => show d.val = win1_7.index t (1 : Fin 2) * 32 + 1 * d.val; omega

/-- An index of the array is in point t's block iff each coordinate is in the block's range on its axis. -/
theorem mem_blk (t : Fin cfg1.N) (i : S100000x32.Idx) :
    i ∈ ((cfg1.win 7).blk t).view.set ↔ ∀ a : Fin 2, win1_7.index t a * S2000x32.size a ≤ (i a).val ∧ (i a).val < win1_7.index t a * S2000x32.size a + S2000x32.size a := by
  show i ∈ ((View.whole main_v17).slice (win1_7.rect t)).set ↔ _
  rw [View.set_slice_whole, Rect.mem_set_unit]
  exact Iff.rfl

/-- Row n lies in the block of point n / 2000: the fifty blocks cover the array. -/
theorem cover (i : S100000x32.Idx) : ∃ t : Fin cfg1.N, (cfg1.win 7).flush t = true ∧ i ∈ ((cfg1.win 7).blk t).view.set := by
  have hi0 : (i 0).val < 100000 := (i 0).isLt
  have hi1 : (i 1).val < 32 := (i 1).isLt
  have hN : (i 0).val / 2000 < cfg1.N := lt_of_lt_of_eq (by omega : (i 0).val / 2000 < 50) N_1.symm
  obtain ⟨-, -, -, -, -, -, -, -, -, -, -, -, -, -, e0, e1⟩ := idx_facts ⟨(i 0).val / 2000, hN⟩
  refine ⟨⟨(i 0).val / 2000, hN⟩, flush1_7 _, ?_⟩
  rw [mem_blk]
  intro a
  match a with
  | ⟨0, _⟩ =>
    show win1_7.index ⟨(i 0).val / 2000, hN⟩ (0 : Fin 2) * 2000 ≤ (i 0).val ∧ (i 0).val < win1_7.index ⟨(i 0).val / 2000, hN⟩ (0 : Fin 2) * 2000 + 2000
    rw [e0]; show (i 0).val / 2000 * 2000 ≤ (i 0).val ∧ (i 0).val < (i 0).val / 2000 * 2000 + 2000; omega
  | ⟨1, _⟩ =>
    show win1_7.index ⟨(i 0).val / 2000, hN⟩ (1 : Fin 2) * 32 ≤ (i 1).val ∧ (i 1).val < win1_7.index ⟨(i 0).val / 2000, hN⟩ (1 : Fin 2) * 32 + 32
    rw [e1]; omega

/-- THE OUTPUT ARRAY after the fifty points: the combined term of the arrays the region finds. -/
theorem final (c : Dev nD) : (dat1 V c).arrAt 7 cfg1.N = outArr V c :=
  (dat1 V c).arrAt_eq_of_cover 7 (outArr V c) (fun t _ => flushed_eq V c t) cover

end Cert.Layer.Node

end
-- ==== Proof.KernelValue.lean ====
/-
  The last boundary's contents at the result buffer, read back to the argument arrays.

  Boundary by boundary, from the end:
    * the node region leaves in its output `combine` of the arrays it finds at its entry (`Node.final`);
    * at that entry x, Wx, Ww, Wf are the launch arguments (no operation and no region writes an argument), the bias
      row is the reshaped bf, and the two aggregated arrays are what the eighteen host operations compute from the
      contents at the edge region's exit: `aggregate dst` of the edge region's output and `aggregate dst` of
      `gatherSrc feat src`;
    * the edge region leaves in its output `edgeArr` of the column and the row it finds at its entry (`Edge.final`),
      which the first two host operations make by reshaping w and weights.
  A vector reshaped to an n×1 column or to a 1×n row is that vector broadcast along the new unit axis (the two keep
  the same entries in the same order), which is how the host program spells the same arrays; with that the result is
  `layerOut` of the ten argument arrays.
-/
import proofs.«143525_j27771258536763_1_alg».proof.Proof.Gen.KernelIdeal.Frame
import proofs.«143525_j27771258536763_1_alg».proof.Proof.EdgeRegion
import proofs.«143525_j27771258536763_1_alg».proof.Proof.NodeRegion
import Idealize.ShloMosaic.Lib.StableHlo.Run

set_option maxRecDepth 16384

noncomputable section

namespace Cert.Layer.Fold

open Cert.KernelIdeal Cert.KernelIdeal.Gen
open Idealize.ShloMosaic Idealize.ShloMosaic.TcCoe Idealize.SL.Sem Idealize.ShloMosaic.StableHlo
open Cert.Lib.DenseLayer

variable (m : (ℓ : Loc nD τ sig) → Buf (Elt Ideal) ℓ) (ρ : Dev nD → PrngReg)

/-! ## The edge region's entry: the two reshapes -/

/-- The column the edge region finds: w reshaped, which is w broadcast along a new trailing unit axis. -/
theorem entry0_col (c : Dev nD) : V1 m ρ c main_v0
    = broadcastInDim Cert.ReferenceIdeal.S1600000x1 ![0] Cert.ReferenceIdeal.Facts₀.bcast_S1600000_S1600000x1_0 (m ((c : Thread nD τ).loc main_arg1)) := by
  show StableHlo.after hostOps0 (W0 m ρ c) (Proc.devRef .tc main_v0) = _
  dsimp only [hostOps0]
  after_results
  exact trailUnit_eq_bcast (n := 1600000) (by decide) _ _ _

/-- The row the edge region finds: weights reshaped, which is weights broadcast along a new leading unit axis. -/
theorem entry0_row (c : Dev nD) : V1 m ρ c main_v1
    = broadcastInDim Cert.ReferenceIdeal.S1x32 ![1] Cert.ReferenceIdeal.Facts₀.bcast_S32_S1x32_1 (m ((c : Thread nD τ).loc main_arg9)) := by
  show StableHlo.after hostOps0 (W0 m ρ c) (Proc.devRef .tc main_v1) = _
  dsimp only [hostOps0]
  after_results
  exact addUnit_eq_bcast (n := 32) (by decide) _ _ _

/-- An argument the edge region does not stage is, at its exit, as launched. -/
theorem exit0_arg (c : Dev nD) (b : Ref sig .tc) (hb : ∀ w, Pipeline.arrRef spec0 w ≠ b)
    (h1 : StableHlo.after hostOps0 (W0 m ρ c) (Proc.devRef .tc b) = m ((c : Thread nD τ).loc b)) :
    W2 m ρ c (Proc.devRef .tc b) = m ((c : Thread nD τ).loc b) :=
  (W2_of_ne m ρ c b hb).trans h1

theorem exit0_arg0 (c : Dev nD) : W2 m ρ c (Proc.devRef .tc main_arg0) = m ((c : Thread nD τ).loc main_arg0) :=
  exit0_arg m ρ c main_arg0 (by decide) (by dsimp only [hostOps0]; after_results <;> rfl)
theorem exit0_arg2 (c : Dev nD) : W2 m ρ c (Proc.devRef .tc main_arg2) = m ((c : Thread nD τ).loc main_arg2) :=
  exit0_arg m ρ c main_arg2 (by decide) (by dsimp only [hostOps0]; after_results <;> rfl)
theorem exit0_arg3 (c : Dev nD) : W2 m ρ c (Proc.devRef .tc main_arg3) = m ((c : Thread nD τ).loc main_arg3) :=
  exit0_arg m ρ c main_arg3 (by decide) (by dsimp only [hostOps0]; after_results <;> rfl)
theorem exit0_arg4 (c : Dev nD) : W2 m ρ c (Proc.devRef .tc main_arg4) = m ((c : Thread nD τ).loc main_arg4) :=
  exit0_arg m ρ c main_arg4 (by decide) (by dsimp only [hostOps0]; after_results <;> rfl)
theorem exit0_arg5 (c : Dev nD) : W2 m ρ c (Proc.devRef .tc main_arg5) = m ((c : Thread nD τ).loc main_arg5) :=
  exit0_arg m ρ c main_arg5 (by decide) (by dsimp only [hostOps0]; after_results <;> rfl)
theorem exit0_arg6 (c : Dev nD) : W2 m ρ c (Proc.devRef .tc main_arg6) = m ((c : Thread nD τ).loc main_arg6) :=
  exit0_arg m ρ c main_arg6 (by decide) (by dsimp only [hostOps0]; after_results <;> rfl)
theorem exit0_arg7 (c : Dev nD) : W2 m ρ c (Proc.devRef .tc main_arg7) = m ((c : Thread nD τ).loc main_arg7) :=
  exit0_arg m ρ c main_arg7 (by decide) (by dsimp only [hostOps0]; after_results <;> rfl)
theorem exit0_arg8 (c : Dev nD) : W2 m ρ c (Proc.devRef .tc main_arg8) = m ((c : Thread nD τ).loc main_arg8) :=
  exit0_arg m ρ c main_arg8 (by decide) (by dsimp only [hostOps0]; after_results <;> rfl)

/-- The edge region's output at its exit: g of the edge weights and the layer's weights. -/
theorem exit0_g (c : Dev nD) : W2 m ρ c (Proc.devRef .tc main_v2)
    = edgeArr (broadcastInDim Cert.ReferenceIdeal.S1600000x1 ![0] Cert.ReferenceIdeal.Facts₀.bcast_S1600000_S1600000x1_0 (m ((c : Thread nD τ).loc main_arg1)))
        (broadcastInDim Cert.ReferenceIdeal.S1x32 ![1] Cert.ReferenceIdeal.Facts₀.bcast_S32_S1x32_1 (m ((c : Thread nD τ).loc main_arg9))) := by
  refine (W2_arr m ρ c 2).trans ((Edge.final (V1 m ρ) c).trans ?_)
  show edgeArr (V1 m ρ c main_v0) (V1 m ρ c main_v1) = _
  rw [entry0_col m ρ c, entry0_row m ρ c]

/-! ## The node region's entry: the eighteen host operations from the edge region's exit -/

theorem entry1_x (c : Dev nD) : V3 m ρ c main_arg0 = m ((c : Thread nD τ).loc main_arg0) := by
  show StableHlo.after hostOps1 (W2 m ρ c) (Proc.devRef .tc main_arg0) = _
  dsimp only [hostOps1]
  after_results
  exact exit0_arg0 m ρ c
theorem entry1_Wx (c : Dev nD) : V3 m ρ c main_arg5 = m ((c : Thread nD τ).loc main_arg5) := by
  show StableHlo.after hostOps1 (W2 m ρ c) (Proc.devRef .tc main_arg5) = _
  dsimp only [hostOps1]
  after_results
  exact exit0_arg5 m ρ c
theorem entry1_Ww (c : Dev nD) : V3 m ρ c main_arg6 = m ((c : Thread nD τ).loc main_arg6) := by
  show StableHlo.after hostOps1 (W2 m ρ c) (Proc.devRef .tc main_arg6) = _
  dsimp only [hostOps1]
  after_results
  exact exit0_arg6 m ρ c
theorem entry1_Wf (c : Dev nD) : V3 m ρ c main_arg7 = m ((c : Thread nD τ).loc main_arg7) := by
  show StableHlo.after hostOps1 (W2 m ρ c) (Proc.devRef .tc main_arg7) = _
  dsimp only [hostOps1]
  after_results
  exact exit0_arg7 m ρ c

/-- The bias row the node region finds: bf reshaped, which is bf broadcast along a new leading unit axis. -/
theorem entry1_bias (c : Dev nD) : V3 m ρ c main_v16
    = broadcastInDim Cert.ReferenceIdeal.S1x32 ![1] Cert.ReferenceIdeal.Facts₀.bcast_S32_S1x32_1 (m ((c : Thread nD τ).loc main_arg8)) := by
  show StableHlo.after hostOps1 (W2 m ρ c) (Proc.devRef .tc main_v16) = _
  dsimp only [hostOps1]
  after_results
  rw [exit0_arg8 m ρ c]
  exact addUnit_eq_bcast (n := 32) (by decide) _ _ _

/-- The aggregated edge array the node region finds. -/
theorem entry1_hw (c : Dev nD) : V3 m ρ c main_v5
    = aggregate (m ((c : Thread nD τ).loc main_arg4))
        (edgeArr (broadcastInDim Cert.ReferenceIdeal.S1600000x1 ![0] Cert.ReferenceIdeal.Facts₀.bcast_S1600000_S1600000x1_0 (m ((c : Thread nD τ).loc main_arg1)))
          (broadcastInDim Cert.ReferenceIdeal.S1x32 ![1] Cert.ReferenceIdeal.Facts₀.bcast_S32_S1x32_1 (m ((c : Thread nD τ).loc main_arg9)))) := by
  show StableHlo.after hostOps1 (W2 m ρ c) (Proc.devRef .tc main_v5) = _
  dsimp only [hostOps1]
  after_results
  rw [exit0_arg4 m ρ c, exit0_g m ρ c]
  rfl

/-- The aggregated features the node region finds. -/
theorem entry1_hf (c : Dev nD) : V3 m ρ c main_v15
    = aggregate (m ((c : Thread nD τ).loc main_arg4)) (gatherSrc (m ((c : Thread nD τ).loc main_arg2)) (m ((c : Thread nD τ).loc main_arg3))) := by
  show StableHlo.after hostOps1 (W2 m ρ c) (Proc.devRef .tc main_v15) = _
  dsimp only [hostOps1]
  after_results
  rw [exit0_arg4 m ρ c, exit0_arg2 m ρ c, exit0_arg3 m ρ c]
  rfl

/-! ## The result -/

/-- The last boundary's contents at the result buffer: the layer's output of the ten argument arrays. -/
theorem result_eq (c : Dev nD) : W4 m ρ c (Proc.devRef .tc main_v17)
    = layerOut (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) (m ((c : Thread nD τ).loc main_arg8)) (m ((c : Thread nD τ).loc main_arg9)) := by
  refine (W4_arr m ρ c 7).trans ((Node.final (V3 m ρ) c).trans ?_)
  show combine (V3 m ρ c main_arg0) (V3 m ρ c main_v5) (V3 m ρ c main_v15) (V3 m ρ c main_arg5) (V3 m ρ c main_arg6)
    (V3 m ρ c main_arg7) (V3 m ρ c main_v16) = _
  rw [entry1_x m ρ c, entry1_hw m ρ c, entry1_hf m ρ c, entry1_Wx m ρ c, entry1_Ww m ρ c, entry1_Wf m ρ c, entry1_bias m ρ c]
  rfl

end Cert.Layer.Fold

end
-- ==== Proof.lean ====
/-
  One message-passing layer of a graph network, computed two ways, gives the same array over the extended reals.

  With x [N, 4] the node inputs, w [E] the edge weights, feat [N, 32] the node features, src and dst [E] the edges'
  end nodes (N = 100000, E = 1600000) and parameters Wx, Ww, Wf, bf, weights, both programs compute
      out = max((x · Wxᵀ + hw · Wwᵀ) + (hf · Wfᵀ + bf), 0),
      hw[n] = Σ over edges e with dst[e] = n of g[e],    g[e, d] = max(w[e] · weights[d], 0),
      hf[n] = Σ over edges e with dst[e] = n of feat[src[e]].
  The host program forms g, the two sums and the three products on whole arrays. The kernel program forms g in a
  first region, 8000 edges at a time, leaves the two sums and the gather to the same host operations, and forms the
  products, the bias, the sums and the maximum in a second region, 2000 nodes at a time, narrowing the matrix unit's
  operands first and accumulating into zero.
  Over the extended reals a change of float format is the identity and the zero accumulator adds nothing, and every
  operation of both regions acts on each row by itself; so each grid point writes back a block of rows of the host's
  own term (Proof/BlockLayers.lean), the blocks cover the arrays (Proof/EdgeRegion.lean, Proof/NodeRegion.lean), and,
  the aggregations in between being the same operations applied to equal arrays, the kernel program's result is the
  host program's term `layerOut` of the ten arguments (Proof/KernelValue.lean, over the run of Proof/KernelRun.lean).
  The two sides are the same sums of the same products in the same grouping: no entry needs to be finite, and the
  precondition is not used. The idealization rewrote no operation, so there is nothing to preserve.
-/
import proofs.«143525_j27771258536763_1_alg».proof.Defs
import proofs.«143525_j27771258536763_1_alg».proof.Proof.Gen.Kernel
import proofs.«143525_j27771258536763_1_alg».proof.Proof.Gen.Kernel.Skeleton
import proofs.«143525_j27771258536763_1_alg».proof.Proof.Gen.Kernel.Launch
import proofs.«143525_j27771258536763_1_alg».proof.Proof.Gen.Kernel.Points
import proofs.«143525_j27771258536763_1_alg».proof.Proof.Gen.Kernel.Frame
import proofs.«143525_j27771258536763_1_alg».proof.Proof.Gen.KernelIdeal
import proofs.«143525_j27771258536763_1_alg».proof.Proof.Gen.KernelIdeal.Skeleton
import proofs.«143525_j27771258536763_1_alg».proof.Proof.Gen.KernelIdeal.Launch
import proofs.«143525_j27771258536763_1_alg».proof.Proof.Gen.KernelIdeal.Points
import proofs.«143525_j27771258536763_1_alg».proof.Proof.Gen.KernelIdeal.Frame
import proofs.«143525_j27771258536763_1_alg».proof.Proof.Gen.ReferenceIdeal
import proofs.«143525_j27771258536763_1_alg».proof.Proof.Gen.ReferenceIdeal.Run
import proofs.«143525_j27771258536763_1_alg».proof.Proof.Gen.Pre_finite_inputs
import proofs.«143525_j27771258536763_1_alg».proof.Proof.KernelRun
import proofs.«143525_j27771258536763_1_alg».proof.Proof.KernelValue
import Idealize.ShloMosaic.Adequacy
import Idealize.ShloMosaic.Init

noncomputable section

namespace Cert.Proof

open Idealize.ShloMosaic Idealize.ShloMosaic.TcCoe Idealize.SL.Sem

/-- The kernel program as printed runs and keeps its arguments. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The host program's run, its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end at `layerOut` of their arguments, and the arguments agree. -/
theorem algebraic : Cert.algebraic_KernelIdeal_ReferenceIdeal := by
  intro m ρ m' ρ' _ hagree
  refine ⟨fun c => Cert.Layer.layerOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.Layer.Fold.result_eq m ρ c), (h c).2⟩)
      (Cert.Layer.Run.value_run (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9⟩ := hagree c
    rw [e0, e1, e2, e3, e4, e5, e6, e7, e8, e9]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
